-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x1024x1024 : Shape := ⟨4, ![8, 4, 1024, 1024]⟩
abbrev S8x1x1024x1024 : Shape := ⟨4, ![8, 1, 1024, 1024]⟩
abbrev S8x1024x1024 : Shape := ⟨3, ![8, 1024, 1024]⟩
abbrev S_ : Shape := ⟨0, ![]⟩

class Facts : Prop where
  bcast_S_S8x4x1024x1024 : S_.BroadcastsInDim S8x4x1024x1024 (![] : Fin 0 → Fin S8x4x1024x1024.rank)
  reducesTo_S8x4x1024x1024_S_d0_1_2_3 : S8x4x1024x1024.ReducesTo [0, 1, 2, 3] S_
  h_S_ : 0 < S_.numel
  bcast_S_S8x1x1024x1024 : S_.BroadcastsInDim S8x1x1024x1024 (![] : Fin 0 → Fin S8x1x1024x1024.rank)
  reducesTo_S8x1x1024x1024_S_d0_1_2_3 : S8x1x1024x1024.ReducesTo [0, 1, 2, 3] S_

variable [Facts]

def fn {F : FTy → Type} [FloatOps F] (main_arg0 : FVec F S8x4x1024x1024 .f32) (main_arg1 : FVec F S8x1x1024x1024 .f32) (main_arg2 : IVec S8x1024x1024 32) (main_arg3 : IVec S8x1024x1024 32) : IVec S_ 1 :=
  let main_v0 : FVec F S8x4x1024x1024 .f32 := Host.absf main_arg0
  let main_cst : FVec F S_ .f32 := constant S_ .f32 0x7F800000#32
  let main_v1 : FVec F S8x4x1024x1024 .f32 := broadcastInDim S8x4x1024x1024 ![] bcast_S_S8x4x1024x1024 main_cst
  let main_v2 : IVec S8x4x1024x1024 1 := cmpf .olt main_v0 main_v1
  let main_c : IVec S_ 1 := constantI S_ 1 1#1
  let main_v3 : IVec S_ 1 := (fun x v => Host.reduce IntOp.andi x v reducesTo_S8x4x1024x1024_S_d0_1_2_3 h_S_) main_v2 main_c
  let main_v4 : FVec F S8x1x1024x1024 .f32 := Host.absf main_arg1
  let main_cst_0 : FVec F S_ .f32 := constant S_ .f32 0x7F800000#32
  let main_v5 : FVec F S8x1x1024x1024 .f32 := broadcastInDim S8x1x1024x1024 ![] bcast_S_S8x1x1024x1024 main_cst_0
  let main_v6 : IVec S8x1x1024x1024 1 := cmpf .olt main_v4 main_v5
  let main_c_1 : IVec S_ 1 := constantI S_ 1 1#1
  let main_v7 : IVec S_ 1 := (fun x v => Host.reduce IntOp.andi x v reducesTo_S8x1x1024x1024_S_d0_1_2_3 h_S_) main_v6 main_c_1
  let main_v8 : IVec S_ 1 := andi main_v3 main_v7
  main_v8
-- ==== Kernel.lean ====
abbrev S8x4x1024x1024 : Shape := ⟨4, ![8, 4, 1024, 1024]⟩
abbrev S8x1x1024x1024 : Shape := ⟨4, ![8, 1, 1024, 1024]⟩
abbrev S8x1024x1024 : Shape := ⟨3, ![8, 1024, 1024]⟩
abbrev S8x1x1 : Shape := ⟨3, ![8, 1, 1]⟩
abbrev S4x4x128x1024 : Shape := ⟨4, ![4, 4, 128, 1024]⟩
abbrev S4x128x1024 : Shape := ⟨3, ![4, 128, 1024]⟩
abbrev S4x1x1 : Shape := ⟨3, ![4, 1, 1]⟩
abbrev S4x1024 : Shape := ⟨2, ![4, 1024]⟩
abbrev S4 : Shape := ⟨1, ![4]⟩
abbrev S4x1 : Shape := ⟨2, ![4, 1]⟩
abbrev S8 : Shape := ⟨1, ![8]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S8x4x1024x1024, .f32⟩
  | .hbm, ⟨1, _⟩ => ⟨S8x1x1024x1024, .f32⟩
  | .hbm, ⟨2, _⟩ => ⟨S8x1024x1024, .i32⟩
  | .hbm, ⟨3, _⟩ => ⟨S8x1024x1024, .i32⟩
  | .hbm, ⟨4, _⟩ => ⟨S8x1x1, .f32⟩
  | .hbm, ⟨5, _⟩ => ⟨S8, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S4x4x128x1024, .f32⟩
  | .local _ .vmem, ⟨1, _⟩ => ⟨S4x4x128x1024, .f32⟩
  | .local _ .vmem, ⟨2, _⟩ => ⟨S4x128x1024, .i32⟩
  | .local _ .vmem, ⟨3, _⟩ => ⟨S4x128x1024, .i32⟩
  | .local _ .vmem, ⟨4, _⟩ => ⟨S4x128x1024, .i32⟩
  | .local _ .vmem, ⟨5, _⟩ => ⟨S4x128x1024, .i32⟩
  | .local _ .vmem, ⟨6, _⟩ => ⟨S4x1x1, .f32⟩
  | .local _ .vmem, ⟨7, _⟩ => ⟨S4x1x1, .f32⟩
  | .local _ .vmem, ⟨8, _⟩ => ⟨S4x1024, .f32⟩
  | _, _ => ⟨S8x4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_16 : BitVec 32 := 0#32
  let v22 : BitVec 1 := Scalar.cmpi .ne v21 c0_i32_16
  v22

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S4x4x128x1024_S4x4x128x1024_0_0_0_0 : ∀ a, (![0, 0, 0, 0] : Fin 4 → Nat) a + S4x4x128x1024.size a ≤ S4x4x128x1024.size a
  h_S4x4x128x1024 : 0 < S4x4x128x1024.numel
  reduces_S4x4x128x1024_S4x128x1024 : S4x4x128x1024.Reduces [1] S4x128x1024
  inb_S4x128x1024_S4x128x1024_0_0_0 : ∀ a, (![0, 0, 0] : Fin 3 → Nat) a + S4x128x1024.size a ≤ S4x128x1024.size a
  h_S4x128x1024 : 0 < S4x128x1024.numel
  reduces_S4x128x1024_S4x1024 : S4x128x1024.Reduces [1] S4x1024
  reduces_S4x1024_S4 : S4x1024.Reduces [1] S4
  shapeCasts_S4_S4x1 : S4.ShapeCasts S4x1
  shapeCasts_S4x1_S4x1x1 : S4x1.ShapeCasts S4x1x1
  inb_S4x1x1_S4x1x1_0_0_0 : ∀ a, (![0, 0, 0] : Fin 3 → Nat) a + S4x1x1.size a ≤ S4x1x1.size a
  h_S4x1x1 : 0 < S4x1x1.numel
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4x128x1024.size a ≤ S8x4x1024x1024.size a
  hwx0_0 : ∀ i : grid0.Coords, EltTy.bits .f32 = 32 ∨ (Rect.block (s := S8x4x1024x1024) S4x4x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x1024.size a ≤ S8x1024x1024.size a
  hwx0_1 : ∀ i : grid0.Coords, EltTy.bits .i32 = 32 ∨ (Rect.block (s := S8x1024x1024) S4x128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128x1024.size a ≤ S8x1024x1024.size a
  hwx0_2 : ∀ i : grid0.Coords, EltTy.bits .i32 = 32 ∨ (Rect.block (s := S8x1024x1024) S4x128x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x1.size a ≤ S8x1x1.size a
  hwx0_3 : ∀ i : grid0.Coords, EltTy.bits .f32 = 32 ∨ (Rect.block (s := S8x1x1) S4x1x1.size (cc0_transform_3 i) (hinb0_3 i)).WholeWords (EltTy.packing .f32)

variable [Facts₀]

abbrev win0_0 : Pipeline.Window sig grid0 :=
  Pipeline.Window.ofSpec (Memref.whole main_arg0) S4x4x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4x1024x1024 : Shape := ⟨4, ![8, 4, 1024, 1024]⟩
abbrev S8x1x1024x1024 : Shape := ⟨4, ![8, 1, 1024, 1024]⟩
abbrev S8x1024x1024 : Shape := ⟨3, ![8, 1024, 1024]⟩
abbrev S_ : Shape := ⟨0, ![]⟩
abbrev S8 : Shape := ⟨1, ![8]⟩

abbrev nBuf : Space → Nat
  | .hbm => 20
  | .vmem => 0
  | .smem => 0
  | _ => 0

abbrev bufTy : (tb : Table) → Fin (tcTables nBuf tb) → BufTy
  | .hbm, ⟨0, _⟩ => ⟨S8x4x1024x1024, .f32⟩
  | .hbm, ⟨1, _⟩ => ⟨S8x1x1024x1024, .f32⟩
  | .hbm, ⟨2, _⟩ => ⟨S8x1024x1024, .i32⟩
  | .hbm, ⟨3, _⟩ => ⟨S8x1024x1024, .i32⟩
  | .hbm, ⟨4, _⟩ => ⟨S_, .f32⟩
  | .hbm, ⟨5, _⟩ => ⟨S8x1024x1024, .f32⟩
  | .hbm, ⟨6, _⟩ => ⟨S_, .f32⟩
  | .hbm, ⟨7, _⟩ => ⟨S8x1024x1024, .f32⟩
  | .hbm, ⟨8, _⟩ => ⟨S8x1024x1024, .f32⟩
  | .hbm, ⟨9, _⟩ => ⟨S8x1024x1024, .f32⟩
  | .hbm, ⟨10, _⟩ => ⟨S8x1024x1024, .f32⟩
  | .hbm, ⟨11, _⟩ => ⟨S8x1024x1024, .f32⟩
  | .hbm, ⟨12, _⟩ => ⟨S8x1024x1024, .f32⟩
  | .hbm, ⟨13, _⟩ => ⟨S8x1024x1024, .f32⟩
  | .hbm, ⟨14, _⟩ => ⟨S_, .f32⟩
  | .hbm, ⟨15, _⟩ => ⟨S8, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S8x4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  reducesTo_S8x4x1024x1024_S8x1024x1024_d1 : S8x4x1024x1024.ReducesTo [1] S8x1024x1024
  h_S_ : 0 < S_.numel
  bcast_S_S8x1024x1024 : S_.BroadcastsInDim S8x1024x1024 (![] : Fin 0 → Fin S8x1024x1024.rank)
  reducesTo_S8x1024x1024_S8_d1_2 : S8x1024x1024.ReducesTo [1, 2] S8
  reducesTo_S8_S_d0 : S8.ReducesTo [0] S_

variable [Facts₀]

class Facts : Prop extends Facts₀ where

variable [Facts]
-- ==== Proof.Pieces.lean ====
/-
  What one grid step leaves behind, as values.

  The kernel keeps a 4 × 1024 row of running column totals in a scratch buffer that lives across the grid steps.
  A step's body (i) at the first row tile of a batch block stores the zero row there, (ii) always reads the row back,
  adds the step's tile of column sums to it and stores it again, and (iii) at the last row tile reads the row once more,
  sums it along the columns and stores the four totals into the output block.  The frame proof records each step's
  stores as a list of pieces; here each list is read back as a value:

    first tile   scratch = update (inputs, zero row)
    middle tile  scratch = update (inputs, previous scratch)
    last tile    scratch = update (inputs, previous scratch),  output = row totals (that scratch)

  where `update` and `row totals` are the body's two arithmetic payloads.  Every store and load goes through the whole
  buffer at zero offsets, so a store leaves its payload and a load reads what is there.  Nothing here depends on the
  float instance.
-/
import proofs.«113062_j15015205667337_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First row tile: the scratch row ends at the update of the zero row (the store of zeros is read back by the load
    that follows it). -/
theorem scratch_first (c : Dev nD) (i : grid0.Coords) (a2 : Memref sig .tc .vmem S4x4x128x1024 .f32) (h2 : a2.IsWhole) (a3 : Memref sig .tc .vmem S4x128x1024 .i32) (h3 : a3.IsWhole) (a4 : Memref sig .tc .vmem S4x128x1024 .i32) (h4 : a4.IsWhole) (a5 : Memref sig .tc .vmem S4x1x1 .f32) (h5 : a5.IsWhole) (a6 : Memref sig .tc .vmem S4x1024 .f32) (h6 : a6.IsWhole) (hc0 : cond0_0 i) (hc1 : ¬cond0_1 i)
    (x0 : Vec F S4x4x128x1024 .f32) (x1 : Vec F S4x128x1024 .i32) (x2 : Vec F S4x128x1024 .i32) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S4x1024) hz2, View.readCov_unit_zero (S := S4x1024) _ hz2]
  simp only [View.readAt_eq_ld, h2.read_unread, h3.read_unread, h4.read_unread, h6.read_unread,
    View.ld_unit_zero (S := S4x4x128x1024) hz4, View.ld_unit_zero (S := S4x128x1024) hz3, View.ld_unit_zero (S := S4x1024) hz2]

/-- A middle row tile: the scratch row ends at the update of what the step before left. -/
theorem scratch_middle (c : Dev nD) (i : grid0.Coords) (a2 : Memref sig .tc .vmem S4x4x128x1024 .f32) (h2 : a2.IsWhole) (a3 : Memref sig .tc .vmem S4x128x1024 .i32) (h3 : a3.IsWhole) (a4 : Memref sig .tc .vmem S4x128x1024 .i32) (h4 : a4.IsWhole) (a5 : Memref sig .tc .vmem S4x1x1 .f32) (h5 : a5.IsWhole) (a6 : Memref sig .tc .vmem S4x1024 .f32) (h6 : a6.IsWhole) (hc0 : ¬cond0_0 i) (hc1 : ¬cond0_1 i)
    (x0 : Vec F S4x4x128x1024 .f32) (x1 : Vec F S4x128x1024 .i32) (x2 : Vec F S4x128x1024 .i32) (xs0 : Vec F S4x1024 .f32) :
    sout0_B_0 c i a2 h2 a3 h3 a4 h4 a5 h5 a6 h6 hc0 hc1 x0 x1 x2 xs0 = k0_pay2 x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero (S := S4x1024) hz2]
  simp only [View.readAt_eq_ld, h2.read_unread, h3.read_unread, h4.read_unread, h6.read_unread,
    View.ld_unit_zero (S := S4x4x128x1024) hz4, View.ld_unit_zero (S := S4x128x1024) hz3, View.ld_unit_zero (S := S4x1024) hz2]

/-- The last row tile: the scratch row likewise … -/
theorem scratch_last (c : Dev nD) (i : grid0.Coords) (a2 : Memref sig .tc .vmem S4x4x128x1024 .f32) (h2 : a2.IsWhole) (a3 : Memref sig .tc .vmem S4x128x1024 .i32) (h3 : a3.IsWhole) (a4 : Memref sig .tc .vmem S4x128x1024 .i32) (h4 : a4.IsWhole) (a5 : Memref sig .tc .vmem S4x1x1 .f32) (h5 : a5.IsWhole) (a6 : Memref sig .tc .vmem S4x1024 .f32) (h6 : a6.IsWhole) (hc0 : ¬cond0_0 i) (hc1 : cond0_1 i)
    (x0 : Vec F S4x4x128x1024 .f32) (x1 : Vec F S4x128x1024 .i32) (x2 : Vec F S4x128x1024 .i32) (xs0 : Vec F S4x1024 .f32) :
    sout0_C_0 c i a2 h2 a3 h3 a4 h4 a5 h5 a6 h6 hc0 hc1 x0 x1 x2 xs0 = k0_pay2 x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero (S := S4x1024) hz2]
  simp only [View.readAt_eq_ld, h2.read_unread, h3.read_unread, h4.read_unread, h6.read_unread,
    View.ld_unit_zero (S := S4x4x128x1024) hz4, View.ld_unit_zero (S := S4x128x1024) hz3, View.ld_unit_zero (S := S4x1024) hz2]

/-- … and the output block holds the row totals of that updated row (the load before the reduction reads the store
    just made). -/
theorem out_last (c : Dev nD) (i : grid0.Coords) (a2 : Memref sig .tc .vmem S4x4x128x1024 .f32) (h2 : a2.IsWhole) (a3 : Memref sig .tc .vmem S4x128x1024 .i32) (h3 : a3.IsWhole) (a4 : Memref sig .tc .vmem S4x128x1024 .i32) (h4 : a4.IsWhole) (a5 : Memref sig .tc .vmem S4x1x1 .f32) (h5 : a5.IsWhole) (a6 : Memref sig .tc .vmem S4x1024 .f32) (h6 : a6.IsWhole) (hc0 : ¬cond0_0 i) (hc1 : cond0_1 i)
    (x0 : Vec F S4x4x128x1024 .f32) (x1 : Vec F S4x128x1024 .i32) (x2 : Vec F S4x128x1024 .i32) (xs0 : Vec F S4x1024 .f32) :
    out0_C_3 c i a2 h2 a3 h3 a4 h4 a5 h5 a6 h6 hc0 hc1 x0 x1 x2 xs0 = k0_pay3 (k0_pay2 x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero (S := S4x1x1) hz3, View.readCov_unit_zero (S := S4x1024) _ hz2]
  simp only [View.readAt_eq_ld, h2.read_unread, h3.read_unread, h4.read_unread, h6.read_unread,
    View.ld_unit_zero (S := S4x4x128x1024) hz4, View.ld_unit_zero (S := S4x128x1024) hz3, View.ld_unit_zero (S := S4x1024) hz2]

end Cert.KernelIdeal.Pieces

end
-- ==== Proof.Payload.lean ====
/-
  The body's arithmetic, read one entry at a time at the ideal values.

  A block of the grid is four samples by 128 rows by 1024 columns.  Write x0 for the likelihood block (sample, channel,
  row, column), x1 and x2 for the two integer map blocks (sample, row, column).  The block's RESIDUAL at (p, r, w) is
  (the sum over the four channels of x0 (p, ·, r, w)) / 4 · x1 (p, r, w) − x2 (p, r, w), the integers read signed.

    update (x0, x1, x2, acc) (p, w)  =  acc (p, w) + the sum over the block's 128 rows r of the squared residual at (p, r, w)
    row totals (acc) (p, ·, ·)       =  the sum over the 1024 columns w of acc (p, w)

  A lane reduction with the zero accumulator is the plain sum over the reduced coordinate, the re-shapings
  [4] → [4,1] → [4,1,1] keep the row-major position, and the division, product and difference are the extended reals'.
-/
import proofs.«113062_j15015205667337_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The block's residual at sample p, row r, column w. -/
def blkRes (x0 : Vec Ideal S4x4x128x1024 .f32) (x1 x2 : Vec Ideal S4x128x1024 .i32) (p : Fin 4) (r : Fin 128) (w : Fin 1024) : EReal :=
  Ideal.div (∑ n : Fin 4, x0 (ix4 p n r w)) (Ideal.ofBits .f32 0x40800000#32) * (((x1 (ix3 p r w)).toInt : ℝ) : EReal)
    - (((x2 (ix3 p r w)).toInt : ℝ) : EReal)

/-- The residuals of a block as the body computes them: channel sum, quotient by the splat 4.0, product with the
    converted weights, difference with the converted reference values. -/
def resVec (x0 : Vec Ideal S4x4x128x1024 .f32) (x1 x2 : Vec Ideal S4x128x1024 .i32) : FVec Ideal S4x128x1024 .f32 :=
  subf (mulf (divf (multiReduction (F := Ideal) .add [1] S4x128x1024 x0 0x00000000#32 reduces_S4x4x128x1024_S4x128x1024 (.inl rfl) rfl)
    (broadcast S4x128x1024 (Scalar.ofBits .f32 0x40800000#32))) (sitofp .f32 x1)) (sitofp .f32 x2)

/-- The channel sum at (p, r, w) is the sum over the four channels. -/
theorem chanSum_apply (x0 : Vec Ideal S4x4x128x1024 .f32) (p : Fin 4) (r : Fin 128) (w : Fin 1024) :
    multiReduction (F := Ideal) .add [1] S4x128x1024 x0 0x00000000#32 reduces_S4x4x128x1024_S4x128x1024 (.inl rfl) rfl (ix3 p r w)
      = ∑ n : Fin 4, x0 (ix4 p n r w) :=
  (Ideal.multiReduction_add_single x0 0x00000000#32 reduces_S4x4x128x1024_S4x128x1024 (.inl rfl) rfl (ix3 p r w)).trans
    (Finset.sum_congr rfl fun n _ => congrArg x0 (funext fun a => Fin.ext (by
      match a with | ⟨0, _⟩ => rfl | ⟨1, _⟩ => rfl | ⟨2, _⟩ => rfl | ⟨3, _⟩ => rfl)))

/-- A sum along the rows of a block, at (p, w), is the sum over the 128 rows. -/
theorem rowSum_apply (v : FVec Ideal S4x128x1024 .f32) (p : Fin 4) (w : Fin 1024) :
    multiReduction (F := Ideal) .add [1] S4x1024 v 0x00000000#32 reduces_S4x128x1024_S4x1024 (.inl rfl) rfl (ix2 p w)
      = ∑ r : Fin 128, v (ix3 p r w) :=
  (Ideal.multiReduction_add_single v 0x00000000#32 reduces_S4x128x1024_S4x1024 (.inl rfl) rfl (ix2 p w)).trans
    (Finset.sum_congr rfl fun r _ => congrArg v (funext fun a => Fin.ext (by
      match a with | ⟨0, _⟩ => rfl | ⟨1, _⟩ => rfl | ⟨2, _⟩ => rfl)))

/-- A sum along the columns of the accumulator, at p, is the sum over the 1024 columns. -/
theorem colSum_apply (v : FVec Ideal S4x1024 .f32) (p : Fin 4) :
    multiReduction (F := Ideal) .add [1] S4 v 0x00000000#32 reduces_S4x1024_S4 (.inl rfl) rfl (ix1 p)
      = ∑ w : Fin 1024, v (ix2 p w) :=
  (Ideal.multiReduction_add_single v 0x00000000#32 reduces_S4x1024_S4 (.inl rfl) rfl (ix1 p)).trans
    (Finset.sum_congr rfl fun w _ => congrArg v (funext fun a => Fin.ext (by
      match a with | ⟨0, _⟩ => rfl | ⟨1, _⟩ => rfl)))

/-- The computed residual at (p, r, w) is the block's residual there. -/
theorem resVec_apply (x0 : Vec Ideal S4x4x128x1024 .f32) (x1 x2 : Vec Ideal S4x128x1024 .i32) (p : Fin 4) (r : Fin 128) (w : Fin 1024) :
    resVec x0 x1 x2 (ix3 p r w) = blkRes x0 x1 x2 p r w := by
  unfold blkRes
  rw [← chanSum_apply x0 p r w]
  rfl

/-- The update payload is the accumulator plus the row sums of the squared residuals. -/
theorem update_eq (x0 : Vec Ideal S4x4x128x1024 .f32) (x1 x2 : Vec Ideal S4x128x1024 .i32) (acc : Vec Ideal S4x1024 .f32) :
    k0_pay2 x0 x1 x2 acc
      = addf acc (multiReduction (F := Ideal) .add [1] S4x1024 (mulf (resVec x0 x1 x2) (resVec x0 x1 x2)) 0x00000000#32 reduces_S4x128x1024_S4x1024 (.inl rfl) rfl) := by
  unfold k0_pay2 resVec
  exact shapeCast_self _ _

/-- The update at an entry: the accumulator's entry plus the sum over the block's 128 rows of the squared residual. -/
theorem update_apply (x0 : Vec Ideal S4x4x128x1024 .f32) (x1 x2 : Vec Ideal S4x128x1024 .i32) (acc : Vec Ideal S4x1024 .f32)
    (p : Fin 4) (w : Fin 1024) :
    k0_pay2 x0 x1 x2 acc (ix2 p w) = acc (ix2 p w) + ∑ r : Fin 128, blkRes x0 x1 x2 p r w * blkRes x0 x1 x2 p r w := by
  rw [update_eq]
  refine congrArg (acc (ix2 p w) + ·) ?_
  refine (rowSum_apply (mulf (resVec x0 x1 x2) (resVec x0 x1 x2)) p w).trans ?_
  refine Finset.sum_congr rfl fun r _ => ?_
  show resVec x0 x1 x2 (ix3 p r w) * resVec x0 x1 x2 (ix3 p r w) = _
  rw [resVec_apply]

/-- The zero row the first tile stores reads zero everywhere. -/
theorem zeroRow_apply (j : S4x1024.Idx) : k0_pay1 (F := Ideal) j = 0 := by
  unfold k0_pay1
  rw [shapeCast_self]
  exact Ideal.ofBits_zero_f32

/-- The row totals at an entry: entry (p, ·, ·) of the 4 × 1 × 1 block is the sum of row p of the accumulator. -/
theorem totals_apply (acc : Vec Ideal S4x1024 .f32) (p : Fin 4) (u v : Fin 1) :
    k0_pay3 acc (ix3 p u v) = ∑ w : Fin 1024, acc (ix2 p w) := by
  unfold k0_pay3
  refine (shapeCast_apply _ shapeCasts_S4x1_S4x1x1 (ix3 p u v) (ix2 p u) ?_).trans ?_
  · rw [Shape.rowMajor_val_two, Shape.rowMajor_val_three]
    show p.val * 1 + u.val = (p.val * 1 + u.val) * 1 + v.val
    omega
  refine (shapeCast_apply _ shapeCasts_S4_S4x1 (ix2 p u) (ix1 p) ?_).trans ?_
  · rw [Shape.rowMajor_val_one, Shape.rowMajor_val_two]
    show p.val = p.val * 1 + u.val
    omega
  exact colSum_apply acc p

end Cert.KernelIdeal.Payload

end
-- ==== Proof.Blocks.lean ====
/-
  Which entries of the arrays a grid step's blocks hold.

  The grid has 2 × 8 steps; step t works on batch block t / 8 (four samples) and row tile t % 8 (128 rows).  Its
  likelihood block is samples 4·(t/8) … +3, all four channels, rows 128·(t%8) … +127, all columns; its two map blocks are
  the same samples and rows; its output block is the same four samples.  So entry (p, n, r, w) of the likelihood block is
  entry (4·(t/8) + p, n, 128·(t%8) + r, w) of the array, and likewise for the maps.
-/
import proofs.«113062_j15015205667337_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block indices of the four windows at step t, decided over the sixteen steps. -/
theorem idx_facts : ∀ t : Fin cfg0.N,
    win0_0.index t (0 : Fin 4) = t.val / 8 ∧ win0_0.index t (1 : Fin 4) = 0 ∧ win0_0.index t (2 : Fin 4) = t.val % 8 ∧ win0_0.index t (3 : Fin 4) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- The likelihood block at step t, entry (p, n, r, w). -/
theorem lik_read (c : Dev nD) (t : Fin cfg0.N) (p n : Fin 4) (r : Fin 128) (w : Fin 1024) (b : Fin 8) (h : Fin 1024)
    (hb : b.val = 4 * (t.val / 8) + p.val) (hh : h.val = 128 * (t.val % 8) + r.val) :
    (iblk m c 0 t : Vec F S4x4x128x1024 .f32) (ix4 p n r w) = m ((c : Thread nD τ).loc main_arg0) (ix4 b n h w) := by
  obtain ⟨e0, e1, e2, e3, -⟩ := idx_facts t
  unfold iblk
  rw [View.read_apply]
  show V m c main_arg0 (((cfg0.win 0).blk t).view.emb (ix4 p n r w)) = V m c main_arg0 (ix4 b n h w)
  refine congrArg (V m c main_arg0) (funext fun a => Fin.ext ?_)
  match a with
  | ⟨0, _⟩ => show win0_0.index t (0 : Fin 4) * 4 + 1 * p.val = b.val; omega
  | ⟨1, _⟩ => show win0_0.index t (1 : Fin 4) * 4 + 1 * n.val = n.val; omega
  | ⟨2, _⟩ => show win0_0.index t (2 : Fin 4) * 128 + 1 * r.val = h.val; omega
  | ⟨3, _⟩ => show win0_0.index t (3 : Fin 4) * 1024 + 1 * w.val = w.val; omega

/-- The weight-map block at step t, entry (p, r, w). -/
theorem wt_read (c : Dev nD) (t : Fin cfg0.N) (p : Fin 4) (r : Fin 128) (w : Fin 1024) (b : Fin 8) (h : Fin 1024)
    (hb : b.val = 4 * (t.val / 8) + p.val) (hh : h.val = 128 * (t.val % 8) + r.val) :
    (iblk m c 1 t : Vec F S4x128x1024 .i32) (ix3 p r w) = m ((c : Thread nD τ).loc main_arg2) (ix3 b h w) := by
  obtain ⟨-, -, -, -, e0, e1, e2, -⟩ := idx_facts t
  unfold iblk
  rw [View.read_apply]
  show V m c main_arg2 (((cfg0.win 1).blk t).view.emb (ix3 p r w)) = V m c main_arg2 (ix3 b h w)
  refine congrArg (V m c main_arg2) (funext fun a => Fin.ext ?_)
  match a with
  | ⟨0, _⟩ => show win0_1.index t (0 : Fin 3) * 4 + 1 * p.val = b.val; omega
  | ⟨1, _⟩ => show win0_1.index t (1 : Fin 3) * 128 + 1 * r.val = h.val; omega
  | ⟨2, _⟩ => show win0_1.index t (2 : Fin 3) * 1024 + 1 * w.val = w.val; omega

/-- The reference-map block at step t, entry (p, r, w). -/
theorem rf_read (c : Dev nD) (t : Fin cfg0.N) (p : Fin 4) (r : Fin 128) (w : Fin 1024) (b : Fin 8) (h : Fin 1024)
    (hb : b.val = 4 * (t.val / 8) + p.val) (hh : h.val = 128 * (t.val % 8) + r.val) :
    (iblk m c 2 t : Vec F S4x128x1024 .i32) (ix3 p r w) = m ((c : Thread nD τ).loc main_arg3) (ix3 b h w) := by
  obtain ⟨-, -, -, -, -, -, -, e0, e1, e2, -⟩ := idx_facts t
  unfold iblk
  rw [View.read_apply]
  show V m c main_arg3 (((cfg0.win 2).blk t).view.emb (ix3 p r w)) = V m c main_arg3 (ix3 b h w)
  refine congrArg (V m c main_arg3) (funext fun a => Fin.ext ?_)
  match a with
  | ⟨0, _⟩ => show win0_2.index t (0 : Fin 3) * 4 + 1 * p.val = b.val; omega
  | ⟨1, _⟩ => show win0_2.index t (1 : Fin 3) * 128 + 1 * r.val = h.val; omega
  | ⟨2, _⟩ => show win0_2.index t (2 : Fin 3) * 1024 + 1 * w.val = w.val; omega

end Cert.KernelIdeal.Blocks

end
-- ==== Proof.LibIdxSums.lean ====
/-
  Sums over the index sets of rank one and rank three, by coordinates.

  An index of a shape of rank k is the tuple of its k coordinates, so a sum over all indices is the iterated sum over
  the coordinates.  (The library's Lib/ValueIdx.lean has the rank-two case, `sum_idx2`; these are its neighbours, over
  any commutative additive monoid — the extended reals in particular, where no finiteness is needed.)
-/
import Idealize.ShloMosaic.Lib.ValueIdx

noncomputable section

open scoped BigOperators

namespace Idealize.ShloMosaic.IdxSums

open Idealize.ShloMosaic Idealize.ShloMosaic.ValueIdx

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.IdxSums

end
-- ==== Proof.Spec.lean ====
/-
  The loss both programs compute, as one function of the three arrays they read, over the extended reals.

  For a sample b and a pixel (h, w) the RESIDUAL is the channel mean of the likelihood there (the sum of its four
  channels divided by the word 4.0), times the weight map's entry read as a signed integer, minus the reference map's
  entry read as a signed integer; the per-sample term is the sum of the squared residuals over all 1024 × 1024 pixels,
  and the loss is the sum of the eight per-sample terms divided by the word 8.0.

  Also here: the one rearrangement of sums that separates the two programs. The kernel cuts the 1024 rows into eight
  tiles of 128, adds each tile's column sums into a running row of 1024 column totals, and sums that row at the
  end; the reference sums over the pixels at once. Addition of extended reals is commutative and associative, so the two
  agree with no finiteness assumption (`sum_colAcc_eight`).
-/
import Idealize.ShloMosaic.PureOps.Ideal
import Idealize.ShloMosaic.PureOps.Ideal.Laws
import Idealize.ShloMosaic.Lib.ValueIdx
import proofs.«113062_j15015205667337_2_alg».proof.Proof.LibIdxSums

noncomputable section

open scoped BigOperators

namespace Cert.TopoLoss

open Idealize.ShloMosaic Idealize.ShloMosaic.ValueIdx Idealize.ShloMosaic.IdxSums

/-- The likelihood array's shape: sample, channel, row, column. -/
abbrev SLik : Shape := ⟨4, ![8, 4, 1024, 1024]⟩
/-- A map's shape: sample, row, column. -/
abbrev SMap : Shape := ⟨3, ![8, 1024, 1024]⟩

/-- The residual at pixel (h, w) of sample b: channel mean × weight − reference. -/
def res (X : SLik.Idx → EReal) (Wt Rf : SMap.Idx → BitVec 32) (b : Fin 8) (h w : Fin 1024) : EReal :=
  Ideal.div (∑ n : Fin 4, X (ix4 b n h w)) (Ideal.ofBits .f32 0x40800000#32) * (((Wt (ix3 b h w)).toInt : ℝ) : EReal)
    - (((Rf (ix3 b h w)).toInt : ℝ) : EReal)

/-- Its square. -/
def resSq (X : SLik.Idx → EReal) (Wt Rf : SMap.Idx → BitVec 32) (b : Fin 8) (h w : Fin 1024) : EReal :=
  res X Wt Rf b h w * res X Wt Rf b h w

/-- The per-sample term: the squared residuals summed over every pixel. -/
def perSample (X : SLik.Idx → EReal) (Wt Rf : SMap.Idx → BitVec 32) (b : Fin 8) : EReal :=
  ∑ h : Fin 1024, ∑ w : Fin 1024, resSq X Wt Rf b h w

/-- The loss: the mean of the eight per-sample terms. -/
def loss (X : SLik.Idx → EReal) (Wt Rf : SMap.Idx → BitVec 32) : EReal :=
  Ideal.div (∑ b : Fin 8, perSample X Wt Rf b) (Ideal.ofBits .f32 0x41000000#32)

/-! ## Tiles of 128 rows -/

/-- Row r of tile j. -/
abbrev tileRow (j : Fin 8) (r : Fin 128) : Fin 1024 := ⟨128 * j.val + r.val, by have := j.isLt; have := r.isLt; omega⟩

/-- Column w's sum of squared residuals over the 128 rows of tile j (zero when j names no tile). -/
def tileSum (X : SLik.Idx → EReal) (Wt Rf : SMap.Idx → BitVec 32) (b : Fin 8) (j : ℕ) (w : Fin 1024) : EReal :=
  if hj : j < 8 then ∑ r : Fin 128, resSq X Wt Rf b (tileRow ⟨j, hj⟩ r) w else 0

theorem tileSum_of_lt (X : SLik.Idx → EReal) (Wt Rf : SMap.Idx → BitVec 32) (b : Fin 8) (j : Fin 8) (w : Fin 1024) :
    tileSum X Wt Rf b j.val w = ∑ r : Fin 128, resSq X Wt Rf b (tileRow j r) w := by
  unfold tileSum; rw [dif_pos j.isLt]

/-- Column w's running total after the first k tiles. -/
def colAcc (X : SLik.Idx → EReal) (Wt Rf : SMap.Idx → BitVec 32) (b : Fin 8) (k : ℕ) (w : Fin 1024) : EReal :=
  ∑ j ∈ Finset.range k, tileSum X Wt Rf b j w

theorem colAcc_zero (X : SLik.Idx → EReal) (Wt Rf : SMap.Idx → BitVec 32) (b : Fin 8) (w : Fin 1024) :
    colAcc X Wt Rf b 0 w = 0 := Finset.sum_range_zero _

theorem colAcc_succ (X : SLik.Idx → EReal) (Wt Rf : SMap.Idx → BitVec 32) (b : Fin 8) (k : ℕ) (w : Fin 1024) :
    colAcc X Wt Rf b (k + 1) w = colAcc X Wt Rf b k w + tileSum X Wt Rf b k w := Finset.sum_range_succ _ _

/-- A sum over the 1024 rows is the sum over the eight tiles of the sums over each tile's 128 rows. -/
theorem sum_rows_eq_tiles {M : Type*} [AddCommMonoid M] (g : Fin 1024 → M) :
    ∑ h : Fin 1024, g h = ∑ j : Fin 8, ∑ r : Fin 128, g (tileRow j r) := by
  rw [← Equiv.sum_comp (finProdFinEquiv (m := 8) (n := 128)) g, Fintype.sum_prod_type]
  refine Finset.sum_congr rfl fun j _ => Finset.sum_congr rfl fun r _ => congrArg g (Fin.ext ?_)
  show r.val + 128 * j.val = 128 * j.val + r.val
  omega

/-- The column totals after all eight tiles, summed over the columns, are the per-sample term. -/
theorem sum_colAcc_eight (X : SLik.Idx → EReal) (Wt Rf : SMap.Idx → BitVec 32) (b : Fin 8) :
    ∑ w : Fin 1024, colAcc X Wt Rf b 8 w = perSample X Wt Rf b := by
  unfold colAcc perSample
  rw [Finset.sum_comm, Finset.sum_range (fun j => ∑ w : Fin 1024, tileSum X Wt Rf b j w),
    sum_rows_eq_tiles (fun h => ∑ w : Fin 1024, resSq X Wt Rf b h w)]
  refine Finset.sum_congr rfl fun j _ => ?_
  rw [Finset.sum_comm]
  exact Finset.sum_congr rfl fun w _ => tileSum_of_lt X Wt Rf b j w

end Cert.TopoLoss

end
-- ==== Proof.Accum.lean ====
/-
  The running column totals, step by step, and what the last step of a batch block writes out.

  Within a batch block the eight row tiles are visited in order.  The scratch row starts at zero at tile 0 and each step
  adds its tile's column sums, so after the step at tile k the entry (p, w) of the scratch row is the sum over tiles
  0 … k of the column sums of sample 4·(block) + p at column w — by induction on the step, the first tile of a block
  needing nothing of the step before it.  At tile 7 the body sums the row over its 1024 columns: the entry for sample
  4·(block) + p of the output block is the sum over all eight tiles and all columns, the per-sample term.
-/
import proofs.«113062_j15015205667337_2_alg».proof.Proof.Pieces
import proofs.«113062_j15015205667337_2_alg».proof.Proof.Payload
import proofs.«113062_j15015205667337_2_alg».proof.Proof.Blocks
import proofs.«113062_j15015205667337_2_alg».proof.Proof.Spec

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.TopoLoss

/-! ## The scratch row and the output block after a step, as payloads of the step's blocks (any float instance) -/

section AnyInstance

variable {F : FTy → Type} [FloatOps F]
variable (m : (ℓ : Loc nD τ sig) → Buf (Elt F) ℓ)

/-- After a step at the first row tile: the update of the zero row. -/
theorem scratch_at_first (c : Dev nD) (t : Fin cfg0.N) (h0 : t.val % 8 = 0) :
    (outsAt0 m c t.val t.isLt).2 = k0_pay2 (iblk m c 0 t) (iblk m c 1 t) (iblk m c 2 t) (k0_pay1 (F := F)) := by
  have h1 : ¬ t.val % 8 = 7 := by omega
  rw [outsAt0_A m c t h0 h1]
  dsimp only
  exact Pieces.scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After a step at a later row tile: the update of what the step before left. -/
theorem scratch_step (c : Dev nD) (n : ℕ) (hn : n + 1 < cfg0.N) (h0 : ¬ (n + 1) % 8 = 0) :
    (outsAt0 m c (n + 1) hn).2
      = k0_pay2 (iblk m c 0 ⟨n + 1, hn⟩) (iblk m c 1 ⟨n + 1, hn⟩) (iblk m c 2 ⟨n + 1, hn⟩) (outsAt0 m c n (Nat.lt_of_succ_lt hn)).2 := by
  by_cases h1 : (n + 1) % 8 = 7
  · rw [outsAt0_C m c ⟨n + 1, hn⟩ h0 h1]
    dsimp only
    exact Pieces.scratch_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2
  · rw [outsAt0_B m c ⟨n + 1, hn⟩ h0 h1]
    dsimp only
    exact Pieces.scratch_middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 m c n (Nat.lt_of_succ_lt hn)).2

/-- After a step at the last row tile the output block holds the row totals of the scratch row that step left. -/
theorem out_at_last (c : Dev nD) (t : Fin cfg0.N) (h7 : t.val % 8 = 7) :
    (outsAt0 m c t.val t.isLt).1 = k0_pay3 (outsAt0 m c t.val t.isLt).2 := by
  have h0 : ¬ t.val % 8 = 0 := by omega
  rw [outsAt0_C m c t h0 h7]
  dsimp only
  exact (Pieces.out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) _).trans
    (congrArg k0_pay3 (Pieces.scratch_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) _).symm)

end AnyInstance

/-! ## At the ideal values -/

variable (m : (ℓ : Loc nD τ sig) → Buf (Elt Ideal) ℓ)

/-- The three arrays the kernel reads, as the launch finds them. -/
abbrev lik (c : Dev nD) : SLik.Idx → EReal := m ((c : Thread nD τ).loc main_arg0)
abbrev wts (c : Dev nD) : SMap.Idx → BitVec 32 := m ((c : Thread nD τ).loc main_arg2)
abbrev refs (c : Dev nD) : SMap.Idx → BitVec 32 := m ((c : Thread nD τ).loc main_arg3)

/-- The step's three input blocks at their literal shapes. -/
abbrev likBlk (c : Dev nD) (t : Fin cfg0.N) : Vec Ideal S4x4x128x1024 .f32 := iblk m c 0 t
abbrev wtBlk (c : Dev nD) (t : Fin cfg0.N) : Vec Ideal S4x128x1024 .i32 := iblk m c 1 t
abbrev rfBlk (c : Dev nD) (t : Fin cfg0.N) : Vec Ideal S4x128x1024 .i32 := iblk m c 2 t

/-- A block's residual is the arrays' residual at the pixel the block entry stands for. -/
theorem blkRes_eq (c : Dev nD) (t : Fin cfg0.N) (p : Fin 4) (r : Fin 128) (w : Fin 1024) (b j : Fin 8)
    (hb : b.val = 4 * (t.val / 8) + p.val) (hj : j.val = t.val % 8) :
    Payload.blkRes (iblk m c 0 t) (iblk m c 1 t) (iblk m c 2 t) p r w = res (lik m c) (wts m c) (refs m c) b (tileRow j r) w := by
  have hh : (tileRow j r).val = 128 * (t.val % 8) + r.val := by show 128 * j.val + r.val = _; rw [hj]
  have e0 : ∑ n : Fin 4, likBlk m c t (ix4 p n r w) = ∑ n : Fin 4, lik m c (ix4 b n (tileRow j r) w) :=
    Finset.sum_congr rfl fun n _ => Blocks.lik_read m c t p n r w b (tileRow j r) hb hh
  have e1 : wtBlk m c t (ix3 p r w) = wts m c (ix3 b (tileRow j r) w) := Blocks.wt_read m c t p r w b (tileRow j r) hb hh
  have e2 : rfBlk m c t (ix3 p r w) = refs m c (ix3 b (tileRow j r) w) := Blocks.rf_read m c t p r w b (tileRow j r) hb hh
  show Payload.blkRes (likBlk m c t) (wtBlk m c t) (rfBlk m c t) p r w = _
  unfold Payload.blkRes res
  rw [e0, e1, e2]

/-- One step's update of an entry: the accumulator's entry plus the tile's column sum. -/
theorem update_step (c : Dev nD) (t : Fin cfg0.N) (acc : Vec Ideal S4x1024 .f32) (p : Fin 4) (w : Fin 1024) (b : Fin 8)
    (hb : b.val = 4 * (t.val / 8) + p.val) :
    k0_pay2 (iblk m c 0 t) (iblk m c 1 t) (iblk m c 2 t) acc (ix2 p w) = acc (ix2 p w) + tileSum (lik m c) (wts m c) (refs m c) b (t.val % 8) w := by
  refine (Payload.update_apply (iblk m c 0 t) (iblk m c 1 t) (iblk m c 2 t) acc p w).trans ?_
  have hj : t.val % 8 < 8 := Nat.mod_lt _ (by norm_num)
  unfold tileSum
  rw [dif_pos hj]
  refine congrArg (acc (ix2 p w) + ·) (Finset.sum_congr rfl fun r _ => ?_)
  rw [blkRes_eq m c t p r w b ⟨t.val % 8, hj⟩ hb rfl]
  rfl

/-- The invariant: after step n the scratch row's entry (p, w) is the column total of sample 4·(n/8) + p over the
    tiles 0 … n % 8. -/
theorem acc_eq (c : Dev nD) : ∀ (n : ℕ) (hn : n < cfg0.N) (p : Fin 4) (w : Fin 1024) (b : Fin 8), b.val = 4 * (n / 8) + p.val →
    (outsAt0 m c n hn).2 (ix2 p w) = colAcc (lik m c) (wts m c) (refs m c) b (n % 8 + 1) w
  | 0, hn, p, w, b, hb => by
    refine (congrFun (scratch_at_first m c ⟨0, hn⟩ rfl) (ix2 p w)).trans ?_
    refine (update_step m c ⟨0, hn⟩ _ p w b hb).trans ?_
    rw [Payload.zeroRow_apply, zero_add]
    show tileSum _ _ _ b 0 w = colAcc _ _ _ b 1 w
    rw [colAcc_succ, colAcc_zero, zero_add]
  | n + 1, hn, p, w, b, hb => by
    by_cases h0 : (n + 1) % 8 = 0
    · refine (congrFun (scratch_at_first m c ⟨n + 1, hn⟩ h0) (ix2 p w)).trans ?_
      refine (update_step m c ⟨n + 1, hn⟩ _ p w b hb).trans ?_
      rw [Payload.zeroRow_apply, zero_add]
      show tileSum _ _ _ b ((n + 1) % 8) w = colAcc _ _ _ b ((n + 1) % 8 + 1) w
      rw [h0, colAcc_succ, colAcc_zero, zero_add]
    · refine (congrFun (scratch_step m c n hn h0) (ix2 p w)).trans ?_
      refine (update_step m c ⟨n + 1, hn⟩ _ p w b hb).trans ?_
      rw [acc_eq c n (Nat.lt_of_succ_lt hn) p w b (by omega)]
      show colAcc _ _ _ b (n % 8 + 1) w + tileSum _ _ _ b ((n + 1) % 8) w = colAcc _ _ _ b ((n + 1) % 8 + 1) w
      have e : (n + 1) % 8 = n % 8 + 1 := by omega
      rw [e, colAcc_succ (k := n % 8 + 1)]

/-- The output block at the last row tile of a batch block: entry (p, ·, ·) is the per-sample term of sample
    4·(block) + p. -/
theorem out_eq (c : Dev nD) (t : Fin cfg0.N) (h7 : t.val % 8 = 7) (p : Fin 4) (u v : Fin 1) (b : Fin 8)
    (hb : b.val = 4 * (t.val / 8) + p.val) :
    (outsAt0 m c t.val t.isLt).1 (ix3 p u v) = perSample (lik m c) (wts m c) (refs m c) b := by
  refine (congrFun (out_at_last m c t h7) (ix3 p u v)).trans ?_
  rw [Payload.totals_apply, ← sum_colAcc_eight]
  refine Finset.sum_congr rfl fun w _ => ?_
  rw [acc_eq m c t.val t.isLt p w b hb, h7]

end Cert.KernelIdeal.Accum

end
-- ==== Proof.KValue.lean ====
/-
  The kernel's result.

  The region's output array holds one entry per sample.  The only steps that write a block of it back are the last row
  tiles of the two batch blocks, and what such a step writes is, entry by entry, the per-sample term of the four samples
  of its block; the two blocks cover the eight samples, so after the region the array is the eight per-sample terms.
  The host operations after the region re-shape it to a vector of eight, sum it from a zero start and divide by the
  word 8.0: the loss.
-/
import proofs.«113062_j15015205667337_2_alg».proof.Proof.Accum
import Idealize.ShloMosaic.Lib.IdealHost
import Idealize.ShloMosaic.Lib.StableHlo.Run

noncomputable section

open scoped BigOperators
open Idealize.ShloMosaic Idealize.ShloMosaic.TcCoe Idealize.SL.Sem Idealize.ShloMosaic.ValueIdx Idealize.ShloMosaic.IdxSums
open Idealize.ShloMosaic.Pipeline (Dat)

namespace Cert.KernelIdeal.KValue

open Cert.KernelIdeal Cert.KernelIdeal.Gen Cert.TopoLoss Cert.KernelIdeal.Accum

variable (m : (ℓ : Loc nD τ sig) → Buf (Elt Ideal) ℓ) (ρ : Dev nD → PrngReg)

/-- The eight per-sample terms as contents of the region's output array. -/
def perSampleArr (c : Dev nD) : Buf (Elt Ideal) ((c : Thread nD τ).loc main_v0) :=
  fun i : S8x1x1.Idx => perSample (lik m c) (wts m c) (refs m c) (i 0)

/-- An entry of the block the last row tile of a batch block leaves is the per-sample term of the sample it stands for. -/
theorem out_entry (c : Dev nD) (t : Fin cfg0.N) (h7 : t.val % 8 = 7) (y : S4x1x1.Idx) (i : S8x1x1.Idx)
    (hi : (i 0).val = 4 * (t.val / 8) + (y 0).val) :
    (outsAt0 m c t.val t.isLt).1 y = perSampleArr m c i := by
  obtain ⟨p, u, v, rfl⟩ : ∃ (p : Fin 4) (u v : Fin 1), y = ix3 p u v := ⟨y 0, y 1, y 2, eq_ix3 y⟩
  unfold perSampleArr
  exact out_eq m c t h7 p u v (i 0) hi

/-- What a write-back writes is its block of the per-sample terms. -/
theorem flushed_eq (c : Dev nD) (t : Fin cfg0.N) (hf : (cfg0.win 3).flush t = true) :
    (dats m 0 c).flushed 3 t = ((cfg0.win 3).blk t).view.read (Elt Ideal) (perSampleArr m c) := by
  have h7 : t.val % 8 = 7 := (flush0_3 t).mp hf
  obtain ⟨-, -, -, -, -, -, -, -, -, -, e0, e1, e2⟩ := Blocks.idx_facts t
  show (cfg0.win 3).cut (grid0.coords t) ((dats m 0 c).after 3 t) = _
  rw [after0_3]
  funext y
  rw [View.read_apply]
  refine out_entry m c t h7 y _ ?_
  show win0_3.index t (0 : Fin 3) * 4 + 1 * (y 0).val = 4 * (t.val / 8) + (y 0).val
  omega

/-- An entry of the output array is in step t's block iff each coordinate is in the block's range. -/
theorem mem_blk (t : Fin cfg0.N) (i : S8x1x1.Idx) :
    i ∈ ((cfg0.win 3).blk t).view.set ↔ ∀ a : Fin 3, win0_3.index t a * S4x1x1.size a ≤ (i a).val ∧ (i a).val < win0_3.index t a * S4x1x1.size a + S4x1x1.size a := by
  show i ∈ ((View.whole main_v0).slice (win0_3.rect t)).set ↔ _
  rw [View.set_slice_whole, Rect.mem_set_unit]
  exact Iff.rfl

/-- Every entry is in the block some write-back writes: sample b's is written at the last row tile of batch block b / 4. -/
theorem cover (i : S8x1x1.Idx) : ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 1 := (i 2).isLt
  have hN : cfg0.N = 16 := N_0
  have ht : 8 * ((i 0).val / 4) + 7 < cfg0.N := by omega
  refine ⟨⟨8 * ((i 0).val / 4) + 7, ht⟩, (flush0_3 _).mpr (by show (8 * ((i 0).val / 4) + 7) % 8 = 7; omega), ?_⟩
  obtain ⟨-, -, -, -, -, -, -, -, -, -, e0, e1, e2⟩ := Blocks.idx_facts ⟨8 * ((i 0).val / 4) + 7, ht⟩
  have e0' : win0_3.index ⟨8 * ((i 0).val / 4) + 7, ht⟩ (0 : Fin 3) = (8 * ((i 0).val / 4) + 7) / 8 := e0
  rw [mem_blk]
  intro a
  match a with
  | ⟨0, _⟩ =>
    show win0_3.index ⟨8 * ((i 0).val / 4) + 7, ht⟩ (0 : Fin 3) * 4 ≤ (i 0).val ∧ (i 0).val < win0_3.index ⟨8 * ((i 0).val / 4) + 7, ht⟩ (0 : Fin 3) * 4 + 4
    omega
  | ⟨1, _⟩ =>
    show win0_3.index ⟨8 * ((i 0).val / 4) + 7, ht⟩ (1 : Fin 3) * 1 ≤ (i 1).val ∧ (i 1).val < win0_3.index ⟨8 * ((i 0).val / 4) + 7, ht⟩ (1 : Fin 3) * 1 + 1
    omega
  | ⟨2, _⟩ =>
    show win0_3.index ⟨8 * ((i 0).val / 4) + 7, ht⟩ (2 : Fin 3) * 1 ≤ (i 2).val ∧ (i 2).val < win0_3.index ⟨8 * ((i 0).val / 4) + 7, ht⟩ (2 : Fin 3) * 1 + 1
    omega

/-- The output array after the region: the eight per-sample terms. -/
theorem final (c : Dev nD) : (dats m 0 c).arrAt 3 cfg0.N = perSampleArr m c :=
  (dats m 0 c).arrAt_eq_of_cover 3 (perSampleArr m c) (flushed_eq m c) cover

/-- The host operations after the region, applied to an array x of eight entries: the sum of the entries over the word
    8.0 (the re-shaping keeps the row-major position, the zero start adds nothing). -/
theorem tail_value (x : S8x1x1.Idx → EReal) (i0 : S_.Idx) :
    Ideal.div (Ideal.hostReduceAdd reducesTo_S8_S_d0 (shapeCast S8 x shapeCasts_S8x1x1_S8) (Ideal.ofBits .f32 0x00000000#32) i0)
        (Ideal.ofBits .f32 0x41000000#32)
      = Ideal.div (∑ b : Fin 8, x (ix3 b 0 0)) (Ideal.ofBits .f32 0x41000000#32) := by
  rw [Ideal.hostReduceAdd_total reducesTo_S8_S_d0 (fun b => b.elim0), Ideal.ofBits_zero_f32, zero_add, sum_idx1]
  refine congrArg (Ideal.div · _) (Finset.sum_congr rfl fun b _ => ?_)
  refine shapeCast_apply x shapeCasts_S8x1x1_S8 (ix1 b) (ix3 b 0 0) ?_
  rw [Shape.rowMajor_val_one, Shape.rowMajor_val_three]
  show (b.val * 1 + 0) * 1 + 0 = b.val
  omega

/-- The program's result: the loss. -/
theorem tail_eq (c : Dev nD) :
    Pipeline.afterTail₀ cfgs (dats m) 0 (V0 m) [hostOps1] c main_v3 = fun _ => loss (lik m c) (wts m c) (refs m c) := by
  have hA : Pipeline.withArrays (cfgs 0).spec c (V0 m c) (fun w => (dats m 0 c).arrAt w (cfgs 0).N) (Proc.tc.devRef main_v0)
      = perSampleArr m c :=
    (Pipeline.withArrays_arr spec0 launch0.win.arr_inj c _ _ 3).trans (final m c)
  unfold Pipeline.afterTail₀
  show StableHlo.after hostOps1 _ (Proc.devRef .tc main_v3) = _
  after_results
  rw [hA]
  funext i0
  exact (tail_value (perSampleArr m c) i0).trans rfl

/-- The run, read: the result at the loss, the four arguments unchanged. -/
theorem run : θ_run defs (onTc (τ := τ) (main (F := Ideal))) ⟨m, fun _ => 0, ρ⟩ fun r => ∀ c : Dev nD,
      r.2.mem ((c.tc : Thread nD τ).loc main_v3) = (fun _ => loss (lik m c) (wts m c) (refs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.KValue

end
-- ==== Proof.RefValue.lean ====
/-
  The reference computes the loss of the specification.

  Its program is sixteen host operations: the channel sum from a zero start, the quotient by the broadcast 4.0, the two
  integer-to-float conversions, product, difference, square, the sum over rows and columns from a zero start, the sum over
  the eight samples from a zero start, the quotient by 8.0.  Each is read at an index by the generated stage lemmas but
  the sum over two axes, which is read here: the pixels whose sample coordinate is b are the pairs (row, column), so the
  sum over that fibre is the double sum.  A zero start adds nothing.
-/
import proofs.«113062_j15015205667337_2_alg».proof.Proof.Gen.ReferenceIdeal.Read
import proofs.«113062_j15015205667337_2_alg».proof.Proof.Spec
import Idealize.ShloMosaic.Lib.IdealHost

noncomputable section

open scoped BigOperators
open Idealize.ShloMosaic Idealize.ShloMosaic.ValueIdx Idealize.ShloMosaic.IdxSums

namespace Cert.ReferenceIdeal.RefValue

open Cert.ReferenceIdeal Cert.ReferenceIdeal.Gen Cert.ReferenceIdeal.Read Cert.TopoLoss

variable (X : (⟨S8x4x1024x1024, .f32⟩ : BufTy).Contents (Elt Ideal)) (Wt Rf : (⟨S8x1024x1024, .i32⟩ : BufTy).Contents (Elt Ideal))

/-- The channel-sum stage reads the four channels of the pixel. -/
theorem chan_idx (b : Fin 8) (h w : Fin 1024) (k : Fin 4) : idx_main_v0 (ix3 b h w) k = ix4 b k h w :=
  funext fun a => Fin.ext (by match a with | ⟨0, _⟩ => rfl | ⟨1, _⟩ => rfl | ⟨2, _⟩ => rfl | ⟨3, _⟩ => rfl)

/-- The squared-difference stage at a pixel is the squared residual. -/
theorem sq_apply (b : Fin 8) (h w : Fin 1024) :
    val_main_v7 (F := Ideal) X Wt Rf (ix3 b h w) = resSq X Wt Rf b h w := by
  rw [val_main_v7_apply, val_main_v6_apply, val_main_v5_apply, val_main_v4_apply, val_main_v3_apply, val_main_v2_apply,
    val_main_v1_apply, val_main_v0_apply, val_main_cst_0_apply, val_main_cst_apply]
  simp only [chan_idx, Ideal.ofBits_def, Ideal.ofBits_zero_f32, zero_add]
  rfl

/-- The pixels of sample b are the pairs (row, column): a sum over that fibre of the sample coordinate is the double sum. -/
theorem sum_fibre (f : S8x1024x1024.Idx → EReal) (b : Fin 8) :
    ∑ i ∈ Finset.univ.filter (fun i => reducesTo_S8x1024x1024_S8_d1_2.drop i = ix1 b), f i
      = ∑ h : Fin 1024, ∑ w : Fin 1024, f (ix3 b h w) := by
  rw [Finset.sum_filter, sum_idx3, Finset.sum_eq_single b]
  · refine Finset.sum_congr rfl fun h _ => Finset.sum_congr rfl fun w _ => if_pos ?_
    exact funext fun d => Fin.ext (by match d with | ⟨0, _⟩ => rfl)
  · intro a _ hab
    refine Finset.sum_eq_zero fun h _ => Finset.sum_eq_zero fun w _ => if_neg fun e => hab ?_
    have e0 : (reducesTo_S8x1024x1024_S8_d1_2.drop (ix3 a h w) 0).val = (ix1 b (0 : Fin 1)).val := by rw [e]
    exact Fin.ext e0
  · intro hb; exact absurd (Finset.mem_univ b) hb

/-- The sum over rows and columns at sample b is the per-sample term. -/
theorem perSample_apply (b : Fin 8) : val_main_v8 (F := Ideal) X Wt Rf (ix1 b) = perSample X Wt Rf b := by
  unfold val_main_v8
  rw [hostReduceAdd_apply]
  unfold Ideal.hostReduceAdd
  rw [val_main_cst_1_apply, sum_fibre]
  simp only [sq_apply, Ideal.ofBits_def, Ideal.ofBits_zero_f32, zero_add]
  rfl

/-- The reference's result is the loss. -/
theorem result_eq : val_main_v10 (F := Ideal) X Wt Rf = fun _ => loss X Wt Rf := by
  funext i
  rw [val_main_v10_apply, val_main_v9_apply, val_main_cst_3_apply, val_main_cst_2_apply, sum_idx1]
  simp only [perSample_apply, Ideal.ofBits_def, Ideal.hostDivf_def, Ideal.ofBits_zero_f32, zero_add]
  rfl

end Cert.ReferenceIdeal.RefValue

end
-- ==== Proof.lean ====
/-
  The kernel and its reference compute one loss.

  Both programs take a likelihood array (8 samples × 4 channels × 1024 × 1024), two integer maps (8 × 1024 × 1024) and a
  fourth array neither reads.  The loss is: per pixel, the channel mean times the weight minus the reference value,
  squared; summed over the pixels of a sample; the eight sums averaged (Proof/Spec.lean).

  The reference computes it in that order.  The kernel walks a 2 × 8 grid — two blocks of four samples, eight tiles of
  128 rows — keeping, per sample of the block, a row of 1024 running column totals: each step adds its tile's column sums
  (Proof/Payload.lean, Proof/Accum.lean), the last tile's step sums the row and writes the four per-sample totals out
  (Proof/KValue.lean), and the host code after the region averages the eight.  The two orders of summation agree because
  addition of extended reals is commutative and associative; no finiteness of the inputs is used, and nothing was
  rewritten between the kernel and its idealization.

  The three frame claims are the generated frames of the two kernels and the generated run of the reference.
-/
import proofs.«113062_j15015205667337_2_alg».proof.Defs
import proofs.«113062_j15015205667337_2_alg».proof.Proof.Gen.Kernel
import proofs.«113062_j15015205667337_2_alg».proof.Proof.Gen.Kernel.Skeleton
import proofs.«113062_j15015205667337_2_alg».proof.Proof.Gen.Kernel.Launch
import proofs.«113062_j15015205667337_2_alg».proof.Proof.Gen.Kernel.Points
import proofs.«113062_j15015205667337_2_alg».proof.Proof.Gen.Kernel.Frame
import proofs.«113062_j15015205667337_2_alg».proof.Proof.Gen.KernelIdeal
import proofs.«113062_j15015205667337_2_alg».proof.Proof.Gen.KernelIdeal.Skeleton
import proofs.«113062_j15015205667337_2_alg».proof.Proof.Gen.KernelIdeal.Launch
import proofs.«113062_j15015205667337_2_alg».proof.Proof.Gen.KernelIdeal.Points
import proofs.«113062_j15015205667337_2_alg».proof.Proof.Gen.KernelIdeal.Frame
import proofs.«113062_j15015205667337_2_alg».proof.Proof.Gen.ReferenceIdeal
import proofs.«113062_j15015205667337_2_alg».proof.Proof.Gen.ReferenceIdeal.Run
import proofs.«113062_j15015205667337_2_alg».proof.Proof.Gen.ReferenceIdeal.Read
import proofs.«113062_j15015205667337_2_alg».proof.Proof.Gen.Pre_finite_inputs
import proofs.«113062_j15015205667337_2_alg».proof.Proof.KValue
import proofs.«113062_j15015205667337_2_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values both programs end with the loss of the arrays they were given, and the arrays agree. -/
theorem algebraic : Cert.algebraic_KernelIdeal_ReferenceIdeal := by
  intro m ρ m' ρ' _ hagree
  refine ⟨fun c _ => Cert.TopoLoss.loss (Cert.KernelIdeal.Accum.lik m c) (Cert.KernelIdeal.Accum.wts m c) (Cert.KernelIdeal.Accum.refs m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2.2.1,
    (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
